-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 13
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .bf16⟩
  | .hbm, ⟨5, _⟩ => ⟨S32x2048x64, .f32⟩
  | .hbm, ⟨6, _⟩ => ⟨S32x2048x64, .bf16⟩
  | .hbm, ⟨7, _⟩ => ⟨S32x2048x64, .f32⟩
  | .hbm, ⟨8, _⟩ => ⟨S32x2048x64, .bf16⟩
  | .hbm, ⟨9, _⟩ => ⟨S32x2048x64, .f32⟩
  | .hbm, ⟨10, _⟩ => ⟨S32x2048x2048, .f32⟩
  | .hbm, ⟨11, _⟩ => ⟨S2x16x2048x64, .f32⟩
  | .hbm, ⟨12, _⟩ => ⟨S2x16x2048x2048, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .bf16 = 32 ∨ (Rect.block (s := S32x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S2x16x2048x64, .f32⟩
  | .hbm, ⟨5, _⟩ => ⟨S2x16x2048x64, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«113784_j57432302682805_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.Consts.lean ====
/-
  The two float constants whose VALUES the argument needs, as the extended reals their patterns denote: the reference divides
  each query entry by the temperature 8, the kernel multiplies each inner product by 0.125. Both patterns are exact dyadic
  rationals, and 0.125 is exactly 1/8, so dividing by the one is multiplying by the other on every extended real.
  (The patterns of 0 and of −∞ occur identically on both sides and are never evaluated, except −∞ as the bottom element.)
-/
import Idealize.ShloMosaic.PureOps.Ideal
import proofs.«113784_j57432302682805_2_alg».proof.Proof.LibHostMax

noncomputable section

namespace Cert.Consts

open Idealize.ShloMosaic

/-- The pattern of `8.0` denotes the real 8. -/
theorem ofBits_eight : Ideal.ofBits .f32 0x41000000#32 = ((8 : ℝ) : EReal) := by
  simp [Ideal.ofBits, Ideal.ieee, -EReal.coe_mul]; norm_num

/-- The pattern of `0.125` denotes the real 1/8. -/
theorem ofBits_eighth : Ideal.ofBits .f32 0x3E000000#32 = ((1 / 8 : ℝ) : EReal) := by
  simp [Ideal.ofBits, Ideal.ieee, -EReal.coe_mul]; norm_num

end Cert.Consts

end
-- ==== Proof.Attention.lean ====
/-
  Scaled dot-product attention over the extended reals, stated index by index.

  For queries, keys and values `q k v : [2, 16, 2048, 64]` (batch, head, position, feature):
    score[b,h,s,t] = ∑_d (q[b,h,s,d] / 8) · k[b,h,t,d]
    attn[b,h,s,t]  = exp(score[s,t] − max_u score[s,u]) / (0 + ∑_u exp(score[s,u] − max_u' score[s,u']))
    out[b,h,s,d]   = ∑_t attn[b,h,s,t] · v[b,h,t,d]
  The row maximum is the supremum of the row (the bottom element for no entries), the sum of weights starts from the zero pattern.

  One arrangement differs between the two programs: where the temperature acts. Dividing every query entry by 8 before the inner
  product (`score`) and multiplying the finished inner product by 1/8 (`scoreScaled`) agree on EVERY extended real, infinities
  included: 1/8 is a nonnegative real, and multiplication by a nonnegative real distributes over any sum of extended reals
  (`sum_mul_coe`) — the failure of distributivity on the extended reals needs a factor that is infinite or of mixed sign. So no
  finiteness of the inputs is used.
-/
import Idealize.ShloMosaic.PureOps.Ideal
import Idealize.ShloMosaic.Lib.ValueIdx
import proofs.«113784_j57432302682805_2_alg».proof.Proof.Consts

noncomputable section

open scoped BigOperators

namespace Cert.Attention

open Idealize.ShloMosaic Idealize.ShloMosaic.ValueIdx

/-! ## Softmax of one row -/

/-- The largest entry of a row: its supremum. -/
def rowMax {n : ℕ} (f : Fin n → EReal) : EReal := Finset.univ.sup f

/-- The unnormalised weight of entry `t`: the exponential of its distance below the row's maximum. -/
def rowWeight {n : ℕ} (f : Fin n → EReal) (t : Fin n) : EReal := Ideal.exp (f t - rowMax f)

/-- Softmax: a weight over the sum of the row's weights (the sum started from the zero pattern). -/
def softmax {n : ℕ} (f : Fin n → EReal) (t : Fin n) : EReal :=
  Ideal.div (rowWeight f t) (Ideal.ofBits .f32 0x00000000#32 + ∑ u : Fin n, rowWeight f u)

/-! ## Multiplication by a nonnegative real distributes over a sum of extended reals -/

theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ## The scores, in the two arrangements -/

/-- An array of queries, keys or values. -/
abbrev QKV : Type := (⟨4, ![2, 16, 2048, 64]⟩ : Shape).Idx → EReal

/-- The score of query position `s` against key position `t`, every query entry divided by the temperature first. -/
def score (q k : QKV) (b : Fin 2) (h : Fin 16) (s t : Fin 2048) : EReal :=
  ∑ d : Fin 64, Ideal.div (q (ix4 b h s d)) (Ideal.ofBits .f32 0x41000000#32) * k (ix4 b h t d)

/-- The same score with the temperature applied to the finished inner product, as its reciprocal. -/
def scoreScaled (q k : QKV) (b : Fin 2) (h : Fin 16) (s t : Fin 2048) : EReal :=
  (∑ d : Fin 64, q (ix4 b h s d) * k (ix4 b h t d)) * Ideal.ofBits .f32 0x3E000000#32

/-- The two arrangements agree: `(∑ q·k) · (1/8) = ∑ (q·(1/8))·k`, term by term after distributing. -/
theorem scoreScaled_eq (q k : QKV) (b : Fin 2) (h : Fin 16) (s t : Fin 2048) :
    scoreScaled q k b h s t = score q k b h s t := by
  unfold scoreScaled score
  rw [Cert.Consts.ofBits_eighth, Cert.Consts.ofBits_eight, sum_mul_coe _ _ _ (by norm_num)]
  refine Finset.sum_congr rfl fun d _ => ?_
  rw [Ideal.div_coe (by norm_num : (8 : ℝ) ≠ 0), mul_right_comm]

/-! ## Attention -/

/-- The attention weights: the softmax of each query position's row of scores. -/
def attn (q k : QKV) (b : Fin 2) (h : Fin 16) (s t : Fin 2048) : EReal :=
  softmax (fun u => score q k b h s u) t

/-- The output: each query position's weights applied to the values. -/
def out (q k v : QKV) (b : Fin 2) (h : Fin 16) (s : Fin 2048) (d : Fin 64) : EReal :=
  ∑ t : Fin 2048, attn q k b h s t * v (ix4 b h t d)

/-- The weights as one array `[2, 16, 2048, 2048]`. -/
def attnArr (q k : QKV) : (⟨4, ![2, 16, 2048, 2048]⟩ : Shape).Idx → EReal :=
  fun i => attn q k (i 0) (i 1) (i 2) (i 3)

/-- The output as one array `[2, 16, 2048, 64]`. -/
def outArr (q k v : QKV) : (⟨4, ![2, 16, 2048, 64]⟩ : Shape).Idx → EReal :=
  fun i => out q k v (i 0) (i 1) (i 2) (i 3)

end Cert.Attention

end
-- ==== Proof.LibHostMax4.lean ====
/-
  A host reduction with a maximum body, started from the bottom element, over the LAST axis of a rank-4 array [a, b, c, w],
  read at an index over the extended reals: at (p, q, r) it is the supremum of the `w` entries (p, q, r, ·). The reduction is a
  fold of `max` over the reduced axis's coordinates in some order, and a fold of `max` from the bottom element over a finite
  family is the family's supremum whatever the order. (The rank-2 and rank-3 forms are in the companion module.)
-/
import Idealize.ShloMosaic.Lib.ValueIdx
import Idealize.ShloMosaic.Lib.Pipeline.Value
import Idealize.ShloMosaic.PureOps.Ideal.Laws

noncomputable section

namespace HostMax4

open Idealize.ShloMosaic Idealize.ShloMosaic.ValueIdx

/-- Position (p, q, r) of an [a, b, c, w] array with coordinate `k` put back on the reduced (last) axis is (p, q, r, k). -/
theorem lift_last {a b c w : ℕ} (h : (⟨4, ![a, b, c, w]⟩ : Shape).Reduces [3] (⟨3, ![a, b, c]⟩ : Shape))
    (p : Fin a) (q : Fin b) (r : Fin c) (k : Fin ((⟨4, ![a, b, c, w]⟩ : Shape).size 3)) :
    h.lift (ix3 p q r) k = ix4 p q r (⟨k.val, k.isLt⟩ : Fin w) := by
  funext d; apply Fin.ext
  fin_cases d <;> rfl

/-- From −∞ the host's maximum over the last axis of an [a, b, c, w] array, at (p, q, r), is the supremum of that row. -/
theorem reduce_last {a b c w : ℕ} (v : FVec Ideal ⟨4, ![a, b, c, w]⟩ .f32) (init : (⟨0, ![]⟩ : Shape).Idx → Ideal .f32)
    (hinit : ∀ i, init i = (⊥ : EReal))
    (h' : (⟨4, ![a, b, c, w]⟩ : Shape).ReducesTo [3] (⟨3, ![a, b, c]⟩ : Shape))
    (h : (⟨4, ![a, b, c, w]⟩ : Shape).Reduces [3] (⟨3, ![a, b, c]⟩ : Shape))
    (hu : 0 < (⟨0, ![]⟩ : Shape).numel) (p : Fin a) (q : Fin b) (r : Fin c) :
    Host.reduce FloatOps.maximumf v init h' hu (ix3 p q r) = (Finset.univ : Finset (Fin w)).sup fun k => v (ix4 p q r k) := by
  rw [Host.reduce_eq_fold_single FloatOps.maximumf v init h' h hu, hinit]
  have hf : (v ∘ h.lift (ix3 p q r)) = fun k : Fin w => v (ix4 p q r k) :=
    funext fun k => congrArg v (lift_last h p q r k)
  exact congrArg (fun f => Finset.fold max (⊥ : EReal) f (Finset.univ : Finset (Fin w))) hf

end HostMax4

end
-- ==== Proof.RefAttention.lean ====
/-
  The reference computation of scaled dot-product attention, read index by index, is the specification.

  The reference works on whole arrays, one operation after another: it divides every query entry by the temperature, takes the
  inner products of query rows with key rows (the scores), takes each row's maximum, subtracts it, exponentiates (the weights),
  sums each row's weights, divides every weight by its row's sum (the attention array), and finally contracts the attention
  array with the values (the output array). Reading each of these arrays at a position (b, h, s, t) gives, step by step, the
  score, the row maximum, the weight, the sum of weights, the softmax and the output of the specification:
    score[b,h,s,t] = ∑_d (q[b,h,s,d] / 8) · k[b,h,t,d]
    max[b,h,s]     = sup_u score[b,h,s,u]               (the reduction starts from −∞, the bottom element, and the further
                                                          maximum with −∞ that the reference takes changes nothing)
    weight[b,h,s,t]= exp(score[b,h,s,t] − max[b,h,s])
    attn[b,h,s,t]  = weight[b,h,s,t] / (0 + ∑_u weight[b,h,s,u])
    out[b,h,s,d]   = ∑_t attn[b,h,s,t] · v[b,h,t,d]
  Every step is an identity of extended reals that holds for all inputs: nothing is assumed finite, and the only float pattern
  whose value is used is that of −∞.
-/
import proofs.«113784_j57432302682805_2_alg».proof.Proof.Gen.ReferenceIdeal.Read
import proofs.«113784_j57432302682805_2_alg».proof.Proof.Attention
import proofs.«113784_j57432302682805_2_alg».proof.Proof.LibHostMax
import proofs.«113784_j57432302682805_2_alg».proof.Proof.LibHostMax4

noncomputable section

open scoped BigOperators

namespace Cert.RefAttention

open Idealize.ShloMosaic Idealize.ShloMosaic.ValueIdx Cert.ReferenceIdeal Cert.ReferenceIdeal.Read Cert.Attention

/-- An array of queries, keys or values as the reference program holds it; it is the specification's array type. -/
abbrev Arr : Type := (⟨S2x16x2048x64, .f32⟩ : BufTy).Contents (Elt Ideal)

/-! ## Where the reference's operations read their operands -/

/-- The first inner product multiplies, along the feature axis, query row (b, h, s) … -/
theorem lidx_score (b : Fin 2) (h : Fin 16) (s t : Fin 2048) (d : Fin 64) :
    lidx_main_v2 (ix4 b h s t) d = ix4 b h s d :=
  funext fun a => Fin.ext (by match a with | ⟨0, _⟩ => rfl | ⟨1, _⟩ => rfl | ⟨2, _⟩ => rfl | ⟨3, _⟩ => rfl)

/-- … with key row (b, h, t). -/
theorem ridx_score (b : Fin 2) (h : Fin 16) (s t : Fin 2048) (d : Fin 64) :
    ridx_main_v2 (ix4 b h s t) d = ix4 b h t d :=
  funext fun a => Fin.ext (by match a with | ⟨0, _⟩ => rfl | ⟨1, _⟩ => rfl | ⟨2, _⟩ => rfl | ⟨3, _⟩ => rfl)

/-- A row's maximum, spread back over the row's positions, is read at the row (b, h, s). -/
theorem idx_rowMax (b : Fin 2) (h : Fin 16) (s t : Fin 2048) :
    idx_main_v6 (idx_main_v7 (ix4 b h s t)) = ix3 b h s :=
  funext fun a => Fin.ext (by match a with | ⟨0, _⟩ => rfl | ⟨1, _⟩ => rfl | ⟨2, _⟩ => rfl)

/-- The sum of row (b, h, s) runs over the positions (b, h, s, u). -/
theorem idx_weightSum (b : Fin 2) (h : Fin 16) (s u : Fin 2048) :
    idx_main_v10 (ix3 b h s) u = ix4 b h s u :=
  funext fun a => Fin.ext (by match a with | ⟨0, _⟩ => rfl | ⟨1, _⟩ => rfl | ⟨2, _⟩ => rfl | ⟨3, _⟩ => rfl)

/-- A row's sum of weights, spread back over the row's positions, is read at the row (b, h, s). -/
theorem idx_rowSum (b : Fin 2) (h : Fin 16) (s t : Fin 2048) :
    idx_main_v11 (idx_main_v12 (ix4 b h s t)) = ix3 b h s :=
  funext fun a => Fin.ext (by match a with | ⟨0, _⟩ => rfl | ⟨1, _⟩ => rfl | ⟨2, _⟩ => rfl)

/-- The second inner product multiplies, along the key positions, attention row (b, h, s) … -/
theorem lidx_out (b : Fin 2) (h : Fin 16) (s : Fin 2048) (d : Fin 64) (t : Fin 2048) :
    lidx_main_v14 (ix4 b h s d) t = ix4 b h s t :=
  funext fun a => Fin.ext (by match a with | ⟨0, _⟩ => rfl | ⟨1, _⟩ => rfl | ⟨2, _⟩ => rfl | ⟨3, _⟩ => rfl)

/-- … with feature d of the values (b, h, ·). -/
theorem ridx_out (b : Fin 2) (h : Fin 16) (s : Fin 2048) (d : Fin 64) (t : Fin 2048) :
    ridx_main_v14 (ix4 b h s d) t = ix4 b h t d :=
  funext fun a => Fin.ext (by match a with | ⟨0, _⟩ => rfl | ⟨1, _⟩ => rfl | ⟨2, _⟩ => rfl | ⟨3, _⟩ => rfl)

/-! ## The stages, index by index -/

/-- The scores: the inner product of the query row, every entry divided by the temperature, with the key row. -/
theorem score_apply (q k : Arr) (b : Fin 2) (h : Fin 16) (s t : Fin 2048) :
    val_main_v2 (F := Ideal) q k (ix4 b h s t) = score q k b h s t := by
  rw [val_main_v2_apply]
  unfold score
  refine Finset.sum_congr rfl fun d _ => ?_
  rw [lidx_score, ridx_score, val_main_v1_apply, val_main_v0_apply, val_main_cst_apply]
  rfl

/-- The maximum over the key positions, started from −∞, is the supremum of the row of scores. -/
theorem reduceMax_apply (q k : Arr) (b : Fin 2) (h : Fin 16) (s : Fin 2048) :
    val_main_v3 (F := Ideal) q k (ix3 b h s)
      = (Finset.univ : Finset (Fin 2048)).sup fun u => val_main_v2 (F := Ideal) q k (ix4 b h s u) := by
  unfold val_main_v3
  exact HostMax4.reduce_last (val_main_v2 (F := Ideal) q k) (val_main_cst_0 (F := Ideal))
    (fun i => (val_main_cst_0_apply (F := Ideal) i).trans HostMax.ofBits_neg_inf)
    Gen.reducesTo_S2x16x2048x2048_S2x16x2048_d3 (by decide) Gen.h_S_ b h s

/-- The row maximum the reference subtracts: the further maximum with −∞ is the identity, max ⊥ x = x. -/
theorem rowMax_apply (q k : Arr) (b : Fin 2) (h : Fin 16) (s : Fin 2048) :
    val_main_v5 (F := Ideal) q k (ix3 b h s) = rowMax fun u => score q k b h s u := by
  rw [val_main_v5_apply, val_main_v4_apply, val_main_cst_1_apply, reduceMax_apply]
  show max (Ideal.ofBits .f32 0xFF800000#32) _ = _
  rw [HostMax.ofBits_neg_inf, max_bot_left]
  unfold rowMax
  exact congrArg (Finset.univ : Finset (Fin 2048)).sup (funext fun u => score_apply q k b h s u)

/-- The weights: the exponential of each score's distance below its row's maximum. -/
theorem weight_apply (q k : Arr) (b : Fin 2) (h : Fin 16) (s t : Fin 2048) :
    val_main_v9 (F := Ideal) q k (ix4 b h s t) = rowWeight (fun u => score q k b h s u) t := by
  rw [val_main_v9_apply, val_main_v8_apply, val_main_v7_apply, val_main_v6_apply, idx_rowMax, rowMax_apply, score_apply]
  rfl

/-- The sum of a row's weights, started from the zero pattern. -/
theorem weightSum_apply (q k : Arr) (b : Fin 2) (h : Fin 16) (s : Fin 2048) :
    val_main_v10 (F := Ideal) q k (ix3 b h s)
      = Ideal.ofBits .f32 0x00000000#32 + ∑ u : Fin 2048, rowWeight (fun u' => score q k b h s u') u := by
  rw [val_main_v10_apply, val_main_cst_2_apply]
  refine congrArg (Ideal.ofBits .f32 0x00000000#32 + ·) (Finset.sum_congr rfl fun u _ => ?_)
  rw [idx_weightSum, weight_apply]

/-- The attention weights: each weight over its row's sum, the softmax of the row of scores. -/
theorem attn_apply (q k : Arr) (b : Fin 2) (h : Fin 16) (s t : Fin 2048) :
    val_main_v13 (F := Ideal) q k (ix4 b h s t) = attn q k b h s t := by
  rw [val_main_v13_apply, val_main_v12_apply, val_main_v11_apply, idx_rowSum, weightSum_apply, weight_apply]
  rfl

/-- The output: each query position's attention weights applied to the values. -/
theorem out_apply (q k v : Arr) (b : Fin 2) (h : Fin 16) (s : Fin 2048) (d : Fin 64) :
    val_main_v14 (F := Ideal) q k v (ix4 b h s d) = out q k v b h s d := by
  rw [val_main_v14_apply]
  unfold out
  refine Finset.sum_congr rfl fun t _ => ?_
  rw [lidx_out, ridx_out, attn_apply]

/-! ## The two result arrays -/

/-- The reference's attention array is the specification's: every position is (b, h, s, t) for its four coordinates. -/
theorem attn_eq (q k : Arr) : val_main_v13 (F := Ideal) q k = attnArr q k := by
  funext i
  exact (congrArg (val_main_v13 (F := Ideal) q k) (eq_ix4 i)).trans (attn_apply q k (i 0) (i 1) (i 2) (i 3))

/-- The reference's output array is the specification's. -/
theorem out_eq (q k v : Arr) : val_main_v14 (F := Ideal) q k v = outArr q k v := by
  funext i
  exact (congrArg (val_main_v14 (F := Ideal) q k v) (eq_ix4 i)).trans (out_apply q k v (i 0) (i 1) (i 2) (i 3))

end Cert.RefAttention

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«113784_j57432302682805_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.TileSoftmax.lean ====
/-
  What one grid point computes, entry by entry, over the extended reals.

  At a point the body holds a tile of 512 query rows `x0 : [1, 512, 64]` and the whole keys and values of one (batch, head),
  `x1 x2 : [1, 2048, 64]`. It forms the 512 × 2048 tile of scaled scores
      S[r, t] = (∑_d x0[r, d] · x1[t, d]) · 0.125,
  takes the softmax of every row of the tile (row maximum, exponentials of the distances below it, their sum, the quotients) and
  stores that tile as the attention weights; then multiplies the weights tile by the values and stores the 512 × 64 result:
      O[r, d] = ∑_t softmax(S[r, ·])[t] · x2[t, d].
  Every step is read at an index: the two matrix products as sums, the two lane reductions as a supremum and a sum over the row,
  the one-column casts and broadcasts as the row's own entry, format changes as the identity.
-/
import proofs.«113784_j57432302682805_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«113784_j57432302682805_2_alg».proof.Proof.Attention
import proofs.«113784_j57432302682805_2_alg».proof.Proof.LibHostMax
import proofs.«113784_j57432302682805_2_alg».proof.Proof.LibDotRows
import proofs.«113784_j57432302682805_2_alg».proof.Proof.LibDotCols
import proofs.«113784_j57432302682805_2_alg».proof.Proof.LibLaneRows

noncomputable section

open scoped BigOperators

namespace Cert.KernelIdeal.Tile

open Cert.KernelIdeal Cert.KernelIdeal.Gen Idealize.ShloMosaic Idealize.ShloMosaic.ValueIdx

/-! ## The softmax of every row of a 512 × 2048 tile -/

/-- The body's softmax steps applied to a tile `P`: lane maximum from −∞, cast to a column, broadcast, subtract, exponential,
    lane sum from 0, cast, broadcast, divide. -/
def softTile (P : FVec Ideal S512x2048 .f32) : FVec Ideal S512x2048 .f32 :=
  divf (exp (subf P (broadcastTo S512x2048 (shapeCast S512x1 (multiReduction (F := Ideal) .maximumf [1] S512 P 0xFF800000#32 reduces_S512x2048_S512 (.inl rfl) rfl) shapeCasts_S512_S512x1) broadcasts_S512x1_S512x2048)))
    (broadcastTo S512x2048 (shapeCast S512x1 (multiReduction (F := Ideal) .add [1] S512 (exp (subf P (broadcastTo S512x2048 (shapeCast S512x1 (multiReduction (F := Ideal) .maximumf [1] S512 P 0xFF800000#32 reduces_S512x2048_S512 (.inl rfl) rfl) shapeCasts_S512_S512x1) broadcasts_S512x1_S512x2048))) 0x00000000#32 reduces_S512x2048_S512 (.inl rfl) rfl) shapeCasts_S512_S512x1) broadcasts_S512x1_S512x2048)

/-- The broadcast row maximum, at any entry of row `r`, is the supremum of row `r`. -/
theorem rowMax_apply (P : FVec Ideal S512x2048 .f32) (r : Fin 512) (u : Fin 2048) :
    broadcastTo S512x2048 (shapeCast S512x1 (multiReduction (F := Ideal) .maximumf [1] S512 P 0xFF800000#32 reduces_S512x2048_S512 (.inl rfl) rfl) shapeCasts_S512_S512x1) broadcasts_S512x1_S512x2048 (ix2 r u)
      = Cert.Attention.rowMax fun k : Fin 2048 => P (ix2 r k) := by
  refine (LaneRows.broadcastTo_col_apply _ broadcasts_S512x1_S512x2048 r u).trans ?_
  refine (HostMax.shapeCast_col_apply _ shapeCasts_S512_S512x1 (ix2 r (0 : Fin 1)) r rfl).trans ?_
  exact HostMax.multiReduction_rows P reduces_S512x2048_S512 (.inl rfl) rfl r

/-- The exponentials tile, at (r, u), is the weight of entry `u` of row `r`. -/
theorem weight_apply (P : FVec Ideal S512x2048 .f32) (r : Fin 512) (u : Fin 2048) :
    exp (subf P (broadcastTo S512x2048 (shapeCast S512x1 (multiReduction (F := Ideal) .maximumf [1] S512 P 0xFF800000#32 reduces_S512x2048_S512 (.inl rfl) rfl) shapeCasts_S512_S512x1) broadcasts_S512x1_S512x2048)) (ix2 r u)
      = Cert.Attention.rowWeight (fun k : Fin 2048 => P (ix2 r k)) u := by
  show Ideal.exp (P (ix2 r u) - _) = _
  rw [rowMax_apply]
  rfl

/-- THE SOFTMAX OF A TILE at (r, t) is the softmax of row `r` at `t`. -/
theorem softTile_apply (P : FVec Ideal S512x2048 .f32) (r : Fin 512) (t : Fin 2048) :
    softTile P (ix2 r t) = Cert.Attention.softmax (fun k : Fin 2048 => P (ix2 r k)) t := by
  unfold softTile Cert.Attention.softmax
  rw [Ideal.ofBits_zero_f32, zero_add, divf_apply]
  refine congrArg₂ Ideal.div (weight_apply P r t) ?_
  refine (LaneRows.broadcastTo_col_apply _ broadcasts_S512x1_S512x2048 r t).trans ?_
  refine (HostMax.shapeCast_col_apply _ shapeCasts_S512_S512x1 (ix2 r (0 : Fin 1)) r rfl).trans ?_
  refine (LaneRows.multiReduction_add_rows _ 0x00000000#32 reduces_S512x2048_S512 (.inl rfl) rfl r).trans ?_
  exact Finset.sum_congr rfl fun u _ => weight_apply P r u

/-! ## The scaled scores of a tile -/

/-- Query row `r` of the tile against key row `t`: the inner product over the 64 features, scaled afterwards. -/
def tileScore (x0 : FVec Ideal S1x512x64 .bf16) (x1 : FVec Ideal S1x2048x64 .bf16) (r : Fin 512) (t : Fin 2048) : EReal :=
  (∑ d : Fin 64, (x0 (ix3 (0 : Fin 1) r d) : EReal) * (x1 (ix3 (0 : Fin 1) t d) : EReal)) * Ideal.ofBits .f32 0x3E000000#32

/-- The body's scores tile: both blocks cast to matrices, multiplied contracting the features into the zero tile, times 0.125. -/
def scoresTile (x0 : FVec Ideal S1x512x64 .bf16) (x1 : FVec Ideal S1x2048x64 .bf16) : FVec Ideal S512x2048 .f32 :=
  mulf (matmul dot_S512x64_S2048x64_S512x2048_1_1_0_0_n_n none (shapeCast S512x64 x0 shapeCasts_S1x512x64_S512x64)
      (shapeCast S2048x64 x1 shapeCasts_S1x2048x64_S2048x64) (constant S512x2048 .f32 0x00000000#32))
    (broadcast S512x2048 (Scalar.ofBits .f32 0x3E000000#32))

theorem scoresTile_apply (x0 : FVec Ideal S1x512x64 .bf16) (x1 : FVec Ideal S1x2048x64 .bf16) (r : Fin 512) (t : Fin 2048) :
    scoresTile x0 x1 (ix2 r t) = tileScore x0 x1 r t := by
  unfold scoresTile tileScore
  rw [mulf_apply, broadcast_apply]
  refine congrArg (· * _) ?_
  refine (Cert.Lib.DotRows.matmul_rows_apply dot_S512x64_S2048x64_S512x2048_1_1_0_0_n_n rfl none _ _ r t).trans ?_
  refine Finset.sum_congr rfl fun d _ => ?_
  rw [shapeCast_1ab_ab_apply, shapeCast_1ab_ab_apply]

/-! ## The three payloads -/

/-- The weights tile the body computes is the softmax of its scores tile. -/
theorem pay1_eq (x0 : FVec Ideal S1x512x64 .bf16) (x1 : FVec Ideal S1x2048x64 .bf16) :
    k0_pay1 (F := Ideal) x0 x1 = softTile (scoresTile x0 x1) := rfl

/-- The weights of row `r` of the tile: the softmax of that row's scaled scores. -/
def tileAttn (x0 : FVec Ideal S1x512x64 .bf16) (x1 : FVec Ideal S1x2048x64 .bf16) (r : Fin 512) (t : Fin 2048) : EReal :=
  Cert.Attention.softmax (fun u => tileScore x0 x1 r u) t

theorem pay1_apply (x0 : FVec Ideal S1x512x64 .bf16) (x1 : FVec Ideal S1x2048x64 .bf16) (r : Fin 512) (t : Fin 2048) :
    k0_pay1 (F := Ideal) x0 x1 (ix2 r t) = tileAttn x0 x1 r t := by
  rw [pay1_eq, softTile_apply]
  unfold tileAttn
  exact congrArg (fun f => Cert.Attention.softmax f t) (funext fun u => scoresTile_apply x0 x1 r u)

/-- What is stored into the weights block: the weights tile under a leading unit axis. -/
theorem pay2_apply (x0 : FVec Ideal S1x512x64 .bf16) (x1 : FVec Ideal S1x2048x64 .bf16) (z : Fin 1) (r : Fin 512) (t : Fin 2048) :
    k0_pay2 (F := Ideal) x0 x1 (ix3 z r t) = tileAttn x0 x1 r t := by
  unfold k0_pay2
  exact (shapeCast_ab_1ab_apply _ _ z r t).trans (pay1_apply x0 x1 r t)

/-- What is stored into the output block: the weights tile times the values, contracting the 2048 key positions. -/
theorem pay3_apply (x0 : FVec Ideal S1x512x64 .bf16) (x1 x2 : FVec Ideal S1x2048x64 .bf16) (z : Fin 1) (r : Fin 512) (d : Fin 64) :
    k0_pay3 (F := Ideal) x0 x1 x2 (ix3 z r d) = ∑ t : Fin 2048, tileAttn x0 x1 r t * (x2 (ix3 (0 : Fin 1) t d) : EReal) := by
  unfold k0_pay3
  refine (shapeCast_ab_1ab_apply _ _ z r d).trans ?_
  refine (Cert.Lib.DotCols.matmul_cols_apply dot_S512x2048_S2048x64_S512x64_1_0_0_1_n_n rfl none _ _ r d).trans ?_
  refine Finset.sum_congr rfl fun t _ => ?_
  rw [truncf_apply, pay1_apply, shapeCast_1ab_ab_apply]

end Cert.KernelIdeal.Tile

end
-- ==== Proof.FlatAttention.lean ====
/-
  The same attention with batch and head merged into one axis of 32, as the kernel's region sees its arrays.

  The kernel's wrapper reshapes `[2, 16, 2048, 64]` to `[32, 2048, 64]`: head `h` of batch `b` becomes row-block `g = 16·b + h`.
  Over such flat arrays `Q K V` the region computes, for every `g`,
      score[g,s,t] = (∑_d Q[g,s,d] · K[g,t,d]) · 0.125,   attn[g,s,·] = softmax(score[g,s,·]),   out[g,s,d] = ∑_t attn[g,s,t] · V[g,t,d].
  When `Q`, `K`, `V` are the flattenings of `q`, `k`, `v` this is the specification's attention at `(b, h)`: the scores agree by the
  scale law (the temperature after the inner product or on every query entry), and the softmax and the weighted sum are the same
  functions of the scores.
-/
import proofs.«113784_j57432302682805_2_alg».proof.Proof.Attention

noncomputable section

open scoped BigOperators

namespace Cert.FlatAttention

open Idealize.ShloMosaic Idealize.ShloMosaic.ValueIdx

/-- An array of queries, keys or values with batch and head merged. -/
abbrev Flat : Type := (⟨3, ![32, 2048, 64]⟩ : Shape).Idx → EReal

/-- The scaled score of query position `s` against key position `t` in row-block `g`. -/
def score (Q K : Flat) (g : Fin 32) (s t : Fin 2048) : EReal :=
  (∑ d : Fin 64, Q (ix3 g s d) * K (ix3 g t d)) * Ideal.ofBits .f32 0x3E000000#32

/-- The attention weights of row-block `g`. -/
def attn (Q K : Flat) (g : Fin 32) (s t : Fin 2048) : EReal :=
  Cert.Attention.softmax (fun u => score Q K g s u) t

/-- The output of row-block `g`. -/
def out (Q K V : Flat) (g : Fin 32) (s : Fin 2048) (d : Fin 64) : EReal :=
  ∑ t : Fin 2048, attn Q K g s t * V (ix3 g t d)

/-- The weights as one array `[32, 2048, 2048]`. -/
def attnArr (Q K : Flat) : (⟨3, ![32, 2048, 2048]⟩ : Shape).Idx → EReal := fun i => attn Q K (i 0) (i 1) (i 2)

/-- The output as one array `[32, 2048, 64]`. -/
def outArr (Q K V : Flat) : (⟨3, ![32, 2048, 64]⟩ : Shape).Idx → EReal := fun i => out Q K V (i 0) (i 1) (i 2)

/-- The row-block of head `h` of batch `b`. -/
def head (b : Fin 2) (h : Fin 16) : Fin 32 := ⟨16 * b.val + h.val, by omega⟩

/-- `Q` is `q` with batch and head merged. -/
def Flattens (Q : Flat) (q : Cert.Attention.QKV) : Prop :=
  ∀ (b : Fin 2) (h : Fin 16) (s : Fin 2048) (d : Fin 64), Q (ix3 (head b h) s d) = q (ix4 b h s d)

variable {Q K V : Flat} {q k v : Cert.Attention.QKV}

/-- The scores agree: the scale law. -/
theorem score_eq (hQ : Flattens Q q) (hK : Flattens K k) (b : Fin 2) (h : Fin 16) (s t : Fin 2048) :
    score Q K (head b h) s t = Cert.Attention.score q k b h s t := by
  rw [← Cert.Attention.scoreScaled_eq]
  unfold score Cert.Attention.scoreScaled
  refine congrArg (· * _) (Finset.sum_congr rfl fun d _ => ?_)
  rw [hQ, hK]

/-- So the weights agree … -/
theorem attn_eq (hQ : Flattens Q q) (hK : Flattens K k) (b : Fin 2) (h : Fin 16) (s t : Fin 2048) :
    attn Q K (head b h) s t = Cert.Attention.attn q k b h s t := by
  unfold attn Cert.Attention.attn
  exact congrArg (fun f => Cert.Attention.softmax f t) (funext fun u => score_eq hQ hK b h s u)

/-- … and the outputs. -/
theorem out_eq (hQ : Flattens Q q) (hK : Flattens K k) (hV : Flattens V v) (b : Fin 2) (h : Fin 16) (s : Fin 2048) (d : Fin 64) :
    out Q K V (head b h) s d = Cert.Attention.out q k v b h s d := by
  unfold out Cert.Attention.out
  refine Finset.sum_congr rfl fun t _ => ?_
  rw [attn_eq hQ hK, hV]

end Cert.FlatAttention

end
-- ==== Proof.Blocks.lean ====
/-
  From the grid's blocks to the two output arrays.

  The region's grid has 32 × 4 points. Point `t` works on row-block `g = t / 4` (one head of one batch) and on the 512 query
  positions `512·(t mod 4) … 512·(t mod 4) + 511`: it is handed those 512 rows of the flat query array and ALL 2048 rows of the
  flat key and value arrays of `g`. So the tile of scaled scores it forms is the flat attention's scores of `g` at those query
  positions, its softmax rows are the flat attention's weights, and its product with the values is the flat attention's output
  there. The point writes the two tiles back to the same rows of the output arrays; the 128 points' blocks tile both arrays, the
  point covering position `(g, s, ·)` being `4·g + s / 512`. Hence after the region the weights array is the flat attention's
  weights everywhere and the output array its output.
-/
import proofs.«113784_j57432302682805_2_alg».proof.Proof.Gen.KernelIdeal.Frame
import proofs.«113784_j57432302682805_2_alg».proof.Proof.TileSoftmax
import proofs.«113784_j57432302682805_2_alg».proof.Proof.FlatAttention
import Idealize.ShloMosaic.Lib.Pipeline.Value
import Idealize.ShloMosaic.Lib.ValueIdx
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

theorem hz : (![0, 0, 0] : Fin 3 → Nat) = fun _ => 0 := funext fun a => by fin_cases a <;> rfl

/-- The flat query, key and value arrays as the region finds them. -/
abbrev Qf (c : Dev nD) : Cert.FlatAttention.Flat := V m c main_v1
abbrev Kf (c : Dev nD) : Cert.FlatAttention.Flat := V m c main_v3
abbrev Vf (c : Dev nD) : Cert.FlatAttention.Flat := V m c main_v5

/-! ## Where point `t` reads and writes -/

/-- The block indices of the five windows at every point: the query block and both output blocks are at (t / 4, t mod 4, 0),
    the key and value blocks at (t / 4, 0, 0). Decided over the 128 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

theorem lt_N (t : Fin cfg0.N) : t.val < 128 := lt_of_lt_of_eq t.isLt N_0

/-- The row-block point `t` works on. -/
def blockHead (t : Fin cfg0.N) : Fin 32 := ⟨t.val / 4, by have := lt_N t; omega⟩

/-- The query position of row `r` of point `t`'s tile. -/
def blockRow (t : Fin cfg0.N) (r : Fin 512) : Fin 2048 := ⟨512 * (t.val % 4) + r.val, by have := r.isLt; omega⟩

/-! ## The input blocks as rows of their arrays -/

/-- The query block at point `t`: row `r` is query position `blockRow t r` of row-block `blockHead t`. -/
theorem qblk_apply (c : Dev nD) (t : Fin cfg0.N) (z : Fin 1) (r : Fin 512) (d : Fin 64) :
    (iblk m c 0 t : S1x512x64.Idx → EReal) (ix3 z r d) = Qf m c (ix3 (blockHead t) (blockRow t r) d) := by
  obtain ⟨e0, e1, e2, -⟩ := idx_facts t
  unfold iblk
  rw [View.read_apply]
  show V m c main_v1 _ = V m c main_v1 _
  congr 1
  funext a
  apply Fin.ext
  have hz1 : z.val = 0 := by omega
  match a with
  | ⟨0, _⟩ => show win0_0.index t (0 : Fin 3) * 1 + 1 * z.val = t.val / 4; omega
  | ⟨1, _⟩ => show win0_0.index t (1 : Fin 3) * 512 + 1 * r.val = 512 * (t.val % 4) + r.val; omega
  | ⟨2, _⟩ => show win0_0.index t (2 : Fin 3) * 64 + 1 * d.val = d.val; omega

/-- The key block at point `t` is all of row-block `blockHead t`. -/
theorem kblk_apply (c : Dev nD) (t : Fin cfg0.N) (z : Fin 1) (u : Fin 2048) (d : Fin 64) :
    (iblk m c 1 t : S1x2048x64.Idx → EReal) (ix3 z u d) = Kf m c (ix3 (blockHead t) u d) := by
  obtain ⟨-, -, -, e0, e1, e2, -⟩ := idx_facts t
  unfold iblk
  rw [View.read_apply]
  show V m c main_v3 _ = V m c main_v3 _
  congr 1
  funext a
  apply Fin.ext
  have hz1 : z.val = 0 := by omega
  match a with
  | ⟨0, _⟩ => show win0_1.index t (0 : Fin 3) * 1 + 1 * z.val = t.val / 4; omega
  | ⟨1, _⟩ => show win0_1.index t (1 : Fin 3) * 2048 + 1 * u.val = u.val; omega
  | ⟨2, _⟩ => show win0_1.index t (2 : Fin 3) * 64 + 1 * d.val = d.val; omega

/-- So is the value block. -/
theorem vblk_apply (c : Dev nD) (t : Fin cfg0.N) (z : Fin 1) (u : Fin 2048) (d : Fin 64) :
    (iblk m c 2 t : S1x2048x64.Idx → EReal) (ix3 z u d) = Vf m c (ix3 (blockHead t) u d) := by
  obtain ⟨-, -, -, -, -, -, e0, e1, e2, -⟩ := idx_facts t
  unfold iblk
  rw [View.read_apply]
  show V m c main_v5 _ = V m c main_v5 _
  congr 1
  funext a
  apply Fin.ext
  have hz1 : z.val = 0 := by omega
  match a with
  | ⟨0, _⟩ => show win0_2.index t (0 : Fin 3) * 1 + 1 * z.val = t.val / 4; omega
  | ⟨1, _⟩ => show win0_2.index t (1 : Fin 3) * 2048 + 1 * u.val = u.val; omega
  | ⟨2, _⟩ => show win0_2.index t (2 : Fin 3) * 64 + 1 * d.val = d.val; omega

/-! ## The point's tile is the flat attention at its rows -/

theorem tileScore_eq (c : Dev nD) (t : Fin cfg0.N) (r : Fin 512) (u : Fin 2048) :
    Cert.KernelIdeal.Tile.tileScore (iblk m c 0 t) (iblk m c 1 t) r u
      = Cert.FlatAttention.score (Qf m c) (Kf m c) (blockHead t) (blockRow t r) u := by
  unfold Cert.KernelIdeal.Tile.tileScore Cert.FlatAttention.score
  refine congrArg (· * _) (Finset.sum_congr rfl fun d _ => ?_)
  exact congrArg₂ (· * ·) (qblk_apply m c t 0 r d) (kblk_apply m c t 0 u d)

theorem tileAttn_eq (c : Dev nD) (t : Fin cfg0.N) (r : Fin 512) (u : Fin 2048) :
    Cert.KernelIdeal.Tile.tileAttn (iblk m c 0 t) (iblk m c 1 t) r u
      = Cert.FlatAttention.attn (Qf m c) (Kf m c) (blockHead t) (blockRow t r) u := by
  unfold Cert.KernelIdeal.Tile.tileAttn Cert.FlatAttention.attn
  exact congrArg (fun f => Cert.Attention.softmax f u) (funext fun u' => tileScore_eq m c t r u')

/-! ## What each point writes back -/

/-- Point `t` writes back its block of the flat attention's WEIGHTS. -/
theorem flushed_attn (c : Dev nD) (t : Fin cfg0.N) :
    (dats m 0 c).flushed 4 t = ((cfg0.win 4).blk t).view.read (Elt Ideal) (Cert.FlatAttention.attnArr (Qf m c) (Kf m c)) := by
  obtain ⟨-, -, -, -, -, -, -, -, -, -, -, -, e0, e1, e2⟩ := idx_facts t
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz]
  funext j
  obtain ⟨z, r, u, rfl⟩ : ∃ (z : Fin 1) (r : Fin 512) (u : Fin 2048), j = ix3 z r u := ⟨j 0, j 1, j 2, eq_ix3 j⟩
  show k0_pay2 (F := Ideal) (iblk m c 0 t) (iblk m c 1 t) (ix3 z r u)
    = Cert.FlatAttention.attnArr (Qf m c) (Kf m c) (((cfg0.win 4).blk t).view.emb (ix3 z r u))
  refine (Cert.KernelIdeal.Tile.pay2_apply (iblk m c 0 t) (iblk m c 1 t) z r u).trans ?_
  refine (tileAttn_eq m c t r u).trans ?_
  have hz1 : z.val = 0 := by omega
  have hg : blockHead t = (((cfg0.win 4).blk t).view.emb (ix3 z r u)) 0 :=
    Fin.ext (by show t.val / 4 = win0_4.index t (0 : Fin 3) * 1 + 1 * z.val; omega)
  have hs : blockRow t r = (((cfg0.win 4).blk t).view.emb (ix3 z r u)) 1 :=
    Fin.ext (by show 512 * (t.val % 4) + r.val = win0_4.index t (1 : Fin 3) * 512 + 1 * r.val; omega)
  have hu : u = (((cfg0.win 4).blk t).view.emb (ix3 z r u)) 2 :=
    Fin.ext (by show u.val = win0_4.index t (2 : Fin 3) * 2048 + 1 * u.val; omega)
  unfold Cert.FlatAttention.attnArr
  exact congr (congr (congrArg (Cert.FlatAttention.attn (Qf m c) (Kf m c)) hg) hs) hu

/-- Point `t` writes back its block of the flat attention's OUTPUT. -/
theorem flushed_out (c : Dev nD) (t : Fin cfg0.N) :
    (dats m 0 c).flushed 3 t = ((cfg0.win 3).blk t).view.read (Elt Ideal) (Cert.FlatAttention.outArr (Qf m c) (Kf m c) (Vf m c)) := by
  obtain ⟨-, -, -, -, -, -, -, -, -, e0, e1, e2, -⟩ := idx_facts t
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  funext j
  obtain ⟨z, r, d, rfl⟩ : ∃ (z : Fin 1) (r : Fin 512) (d : Fin 64), j = ix3 z r d := ⟨j 0, j 1, j 2, eq_ix3 j⟩
  show k0_pay3 (F := Ideal) (iblk m c 0 t) (iblk m c 1 t) (iblk m c 2 t) (ix3 z r d)
    = Cert.FlatAttention.outArr (Qf m c) (Kf m c) (Vf m c) (((cfg0.win 3).blk t).view.emb (ix3 z r d))
  refine (Cert.KernelIdeal.Tile.pay3_apply (iblk m c 0 t) (iblk m c 1 t) (iblk m c 2 t) z r d).trans ?_
  have hz1 : z.val = 0 := by omega
  have hg : blockHead t = (((cfg0.win 3).blk t).view.emb (ix3 z r d)) 0 :=
    Fin.ext (by show t.val / 4 = win0_3.index t (0 : Fin 3) * 1 + 1 * z.val; omega)
  have hs : blockRow t r = (((cfg0.win 3).blk t).view.emb (ix3 z r d)) 1 :=
    Fin.ext (by show 512 * (t.val % 4) + r.val = win0_3.index t (1 : Fin 3) * 512 + 1 * r.val; omega)
  have hd : d = (((cfg0.win 3).blk t).view.emb (ix3 z r d)) 2 :=
    Fin.ext (by show d.val = win0_3.index t (2 : Fin 3) * 64 + 1 * d.val; omega)
  have hsum : (∑ u : Fin 2048, Cert.KernelIdeal.Tile.tileAttn (iblk m c 0 t) (iblk m c 1 t) r u
        * ((iblk m c 2 t : S1x2048x64.Idx → EReal) (ix3 (0 : Fin 1) u d)))
      = Cert.FlatAttention.out (Qf m c) (Kf m c) (Vf m c) (blockHead t) (blockRow t r) d := by
    unfold Cert.FlatAttention.out
    exact Finset.sum_congr rfl fun u _ => congrArg₂ (· * ·) (tileAttn_eq m c t r u) (vblk_apply m c t 0 u d)
  refine hsum.trans ?_
  unfold Cert.FlatAttention.outArr
  exact congr (congr (congrArg (Cert.FlatAttention.out (Qf m c) (Kf m c) (Vf m c)) hg) hs) hd

/-! ## The blocks tile the arrays -/

theorem mem_blk_attn (t : Fin cfg0.N) (i : S32x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v6_1).slice (win0_4.rect t)).set ↔ _
  rw [View.set_slice_whole, Rect.mem_set_unit]
  exact Iff.rfl

theorem mem_blk_out (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v6_0).slice (win0_3.rect t)).set ↔ _
  rw [View.set_slice_whole, Rect.mem_set_unit]
  exact Iff.rfl

/-- The point whose blocks hold query position `s` of row-block `g`. -/
def pointOf (g : Fin 32) (s : Fin 2048) : Fin cfg0.N :=
  ⟨4 * g.val + s.val / 512, by rw [show cfg0.N = 128 from N_0]; have := g.isLt; have := s.isLt; omega⟩

theorem cover_attn (i : S32x2048x2048.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 2048 := (i 2).isLt
  refine ⟨pointOf (i 0) (i 1), flush0_4 _, ?_⟩
  obtain ⟨-, -, -, -, -, -, -, -, -, -, -, -, e0, e1, e2⟩ := idx_facts (pointOf (i 0) (i 1))
  have hv : (pointOf (i 0) (i 1)).val = 4 * (i 0).val + (i 1).val / 512 := rfl
  rw [mem_blk_attn]
  intro a
  match a with
  | ⟨0, _⟩ =>
    show win0_4.index (pointOf (i 0) (i 1)) (0 : Fin 3) * 1 ≤ (i 0).val ∧ (i 0).val < win0_4.index (pointOf (i 0) (i 1)) (0 : Fin 3) * 1 + 1
    omega
  | ⟨1, _⟩ =>
    show win0_4.index (pointOf (i 0) (i 1)) (1 : Fin 3) * 512 ≤ (i 1).val ∧ (i 1).val < win0_4.index (pointOf (i 0) (i 1)) (1 : Fin 3) * 512 + 512
    omega
  | ⟨2, _⟩ =>
    show win0_4.index (pointOf (i 0) (i 1)) (2 : Fin 3) * 2048 ≤ (i 2).val ∧ (i 2).val < win0_4.index (pointOf (i 0) (i 1)) (2 : Fin 3) * 2048 + 2048
    omega

theorem cover_out (i : S32x2048x64.Idx) :
    ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 64 := (i 2).isLt
  refine ⟨pointOf (i 0) (i 1), flush0_3 _, ?_⟩
  obtain ⟨-, -, -, -, -, -, -, -, -, e0, e1, e2, -⟩ := idx_facts (pointOf (i 0) (i 1))
  have hv : (pointOf (i 0) (i 1)).val = 4 * (i 0).val + (i 1).val / 512 := rfl
  rw [mem_blk_out]
  intro a
  match a with
  | ⟨0, _⟩ =>
    show win0_3.index (pointOf (i 0) (i 1)) (0 : Fin 3) * 1 ≤ (i 0).val ∧ (i 0).val < win0_3.index (pointOf (i 0) (i 1)) (0 : Fin 3) * 1 + 1
    omega
  | ⟨1, _⟩ =>
    show win0_3.index (pointOf (i 0) (i 1)) (1 : Fin 3) * 512 ≤ (i 1).val ∧ (i 1).val < win0_3.index (pointOf (i 0) (i 1)) (1 : Fin 3) * 512 + 512
    omega
  | ⟨2, _⟩ =>
    show win0_3.index (pointOf (i 0) (i 1)) (2 : Fin 3) * 64 ≤ (i 2).val ∧ (i 2).val < win0_3.index (pointOf (i 0) (i 1)) (2 : Fin 3) * 64 + 64
    omega

/-! ## The two arrays after the region -/

/-- The weights array ends holding the flat attention's weights. -/
theorem final_attn (c : Dev nD) : (dats m 0 c).arrAt 4 cfg0.N = Cert.FlatAttention.attnArr (Qf m c) (Kf m c) :=
  (dats m 0 c).arrAt_eq_of_cover 4 (Cert.FlatAttention.attnArr (Qf m c) (Kf m c)) (fun t _ => flushed_attn m c t) cover_attn

/-- The output array ends holding the flat attention's output. -/
theorem final_out (c : Dev nD) : (dats m 0 c).arrAt 3 cfg0.N = Cert.FlatAttention.outArr (Qf m c) (Kf m c) (Vf m c) :=
  (dats m 0 c).arrAt_eq_of_cover 3 (Cert.FlatAttention.outArr (Qf m c) (Kf m c) (Vf m c)) (fun t _ => flushed_out m c t) cover_out

end Cert.KernelIdeal.Blocks

end
-- ==== Proof.HostGlue.lean ====
/-
  The reshapes around the kernel's region, read index by index.

  Before its region the kernel merges batch and head into one axis: each argument array [2, 16, 2048, 64] is reshaped to
  [32, 2048, 64] and converted to the narrower float format. A reshape keeps every element at its row-major position, and
  position (b, h, s, d) of the first shape and position (16·b + h, s, d) of the second are both
      ((16·b + h)·2048 + s)·64 + d,
  so the reshaped array at row-block 16·b + h is the argument at (b, h). The conversion changes no value: over the extended
  reals every float format holds the same numbers. Hence each of the region's three input arrays is the flattening of its
  argument.

  After its region the kernel splits the merged axis again: the region's output [32, 2048, 64] is reshaped to [2, 16, 2048, 64]
  and its attention array [32, 2048, 2048] to [2, 16, 2048, 2048]. What the two result buffers hold at the end is therefore the
  reshape of what the region left in its two output arrays, and, by the same equality of row-major positions, the reshaped
  array at (b, h, s, ·) is the region's array at (16·b + h, s, ·).
-/
import proofs.«113784_j57432302682805_2_alg».proof.Proof.Gen.KernelIdeal.Frame
import proofs.«113784_j57432302682805_2_alg».proof.Proof.FlatAttention
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.HostGlue

open Idealize.ShloMosaic Idealize.ShloMosaic.TcCoe Idealize.ShloMosaic.Tactic Idealize.ShloMosaic.ValueIdx
open Idealize.SL Idealize.SL.Sem
open Cert.KernelIdeal Cert.KernelIdeal.Gen Cert.FlatAttention

variable (m : (ℓ : Loc nD τ sig) → Buf (Elt Ideal) ℓ)

/-! ## The reshapes at an index -/

/-- Merging batch and head: the reshaped array at (16·b + h, s, d) is the array at (b, h, s, d), both positions being
    ((16·b + h)·2048 + s)·64 + d in row-major order. -/
theorem flatten_apply (A : S2x16x2048x64.Idx → EReal) (b : Fin 2) (h : Fin 16) (s : Fin 2048) (d : Fin 64) :
    shapeCast S32x2048x64 A shapeCasts_S2x16x2048x64_S32x2048x64 (ix3 (head b h) s d) = A (ix4 b h s d) := by
  refine shapeCast_apply A _ (ix3 (head b h) s d) (ix4 b h s d) ?_
  rw [Shape.rowMajor_val_three, Shape.rowMajor_val_four]
  show ((b.val * 16 + h.val) * 2048 + s.val) * 64 + d.val = ((16 * b.val + h.val) * 2048 + s.val) * 64 + d.val
  omega

/-- Splitting the merged axis of an output array: the reshaped array at (b, h, s, d) is the array at (16·b + h, s, d). -/
theorem unflatten_out (A : S32x2048x64.Idx → EReal) (b : Fin 2) (h : Fin 16) (s : Fin 2048) (d : Fin 64) :
    shapeCast S2x16x2048x64 A shapeCasts_S32x2048x64_S2x16x2048x64 (ix4 b h s d) = A (ix3 (head b h) s d) := by
  refine shapeCast_apply A _ (ix4 b h s d) (ix3 (head b h) s d) ?_
  rw [Shape.rowMajor_val_three, Shape.rowMajor_val_four]
  show ((16 * b.val + h.val) * 2048 + s.val) * 64 + d.val = ((b.val * 16 + h.val) * 2048 + s.val) * 64 + d.val
  omega

/-- Splitting the merged axis of an attention array: the reshaped array at (b, h, s, t) is the array at (16·b + h, s, t),
    both positions being ((16·b + h)·2048 + s)·2048 + t. -/
theorem unflatten_attn (A : S32x2048x2048.Idx → EReal) (b : Fin 2) (h : Fin 16) (s t : Fin 2048) :
    shapeCast S2x16x2048x2048 A shapeCasts_S32x2048x2048_S2x16x2048x2048 (ix4 b h s t) = A (ix3 (head b h) s t) := by
  refine shapeCast_apply A _ (ix4 b h s t) (ix3 (head b h) s t) ?_
  rw [Shape.rowMajor_val_three, Shape.rowMajor_val_four]
  show ((16 * b.val + h.val) * 2048 + s.val) * 2048 + t.val = ((b.val * 16 + h.val) * 2048 + s.val) * 2048 + t.val
  omega

/-! ## What the region finds in its three input arrays -/

/-- The queries as the region finds them: the first argument reshaped, then converted. -/
theorem V_main_v1 (c : Dev nD) : @Eq (FVec Ideal S32x2048x64 .bf16) (V m c main_v1)
    (truncf (F := Ideal) .bf16 (shapeCast S32x2048x64 (m ((c : Thread nD τ).loc main_arg0) : FVec Ideal S2x16x2048x64 .f32)
        shapeCasts_S2x16x2048x64_S32x2048x64) bitsLt_bf16_f32) := by
  show StableHlo.after hostOps0 (fun b => m (c, b)) (Proc.devRef .tc main_v1) = _
  after_results
  rfl

/-- The keys as the region finds them: the second argument reshaped, then converted. -/
theorem V_main_v3 (c : Dev nD) : @Eq (FVec Ideal S32x2048x64 .bf16) (V m c main_v3)
    (truncf (F := Ideal) .bf16 (shapeCast S32x2048x64 (m ((c : Thread nD τ).loc main_arg1) : FVec Ideal S2x16x2048x64 .f32)
        shapeCasts_S2x16x2048x64_S32x2048x64) bitsLt_bf16_f32) := by
  show StableHlo.after hostOps0 (fun b => m (c, b)) (Proc.devRef .tc main_v3) = _
  after_results
  rfl

/-- The values as the region finds them: the third argument reshaped, then converted. -/
theorem V_main_v5 (c : Dev nD) : @Eq (FVec Ideal S32x2048x64 .bf16) (V m c main_v5)
    (truncf (F := Ideal) .bf16 (shapeCast S32x2048x64 (m ((c : Thread nD τ).loc main_arg2) : FVec Ideal S2x16x2048x64 .f32)
        shapeCasts_S2x16x2048x64_S32x2048x64) bitsLt_bf16_f32) := by
  show StableHlo.after hostOps0 (fun b => m (c, b)) (Proc.devRef .tc main_v5) = _
  after_results
  rfl

/-- The region's queries are the first argument with batch and head merged: the conversion is the identity on the
    extended reals, the reshape keeps row-major positions. -/
theorem flattens_q (c : Dev nD) :
    Flattens (V m c main_v1 : S32x2048x64.Idx → EReal) (m ((c : Thread nD τ).loc main_arg0)) := by
  intro b h s d
  rw [V_main_v1]
  exact flatten_apply _ b h s d

/-- The region's keys are the second argument with batch and head merged. -/
theorem flattens_k (c : Dev nD) :
    Flattens (V m c main_v3 : S32x2048x64.Idx → EReal) (m ((c : Thread nD τ).loc main_arg1)) := by
  intro b h s d
  rw [V_main_v3]
  exact flatten_apply _ b h s d

/-- The region's values are the third argument with batch and head merged. -/
theorem flattens_v (c : Dev nD) :
    Flattens (V m c main_v5 : S32x2048x64.Idx → EReal) (m ((c : Thread nD τ).loc main_arg2)) := by
  intro b h s d
  rw [V_main_v5]
  exact flatten_apply _ b h s d

/-! ## What the two result buffers hold at the end -/

/-- The output buffer at the end: the region's output array, its merged axis split again. -/
theorem tail_out (c : Dev nD) : Pipeline.afterTail₀ cfgs (dats m) 0 (V0 m) [hostOps1] c main_v7
    = shapeCast S2x16x2048x64 ((dats m 0 c).arrAt 3 cfg0.N : S32x2048x64.Idx → EReal) shapeCasts_S32x2048x64_S2x16x2048x64 := by
  unfold Pipeline.afterTail₀
  show StableHlo.after hostOps1 _ (Proc.devRef .tc main_v7) = _
  after_results
  have hw := Pipeline.withArrays_arr spec0 launch0.win.arr_inj c (V0 m c) (fun w => (dats m 0 c).arrAt w cfg0.N) 3
  exact congrArg (fun X : S32x2048x64.Idx → EReal => shapeCast S2x16x2048x64 X shapeCasts_S32x2048x64_S2x16x2048x64) hw

/-- The attention buffer at the end: the region's attention array, its merged axis split again. -/
theorem tail_attn (c : Dev nD) : Pipeline.afterTail₀ cfgs (dats m) 0 (V0 m) [hostOps1] c main_v8
    = shapeCast S2x16x2048x2048 ((dats m 0 c).arrAt 4 cfg0.N : S32x2048x2048.Idx → EReal) shapeCasts_S32x2048x2048_S2x16x2048x2048 := by
  unfold Pipeline.afterTail₀
  show StableHlo.after hostOps1 _ (Proc.devRef .tc main_v8) = _
  after_results
  have hw := Pipeline.withArrays_arr spec0 launch0.win.arr_inj c (V0 m c) (fun w => (dats m 0 c).arrAt w cfg0.N) 4
  exact congrArg (fun X : S32x2048x2048.Idx → EReal => shapeCast S2x16x2048x2048 X shapeCasts_S32x2048x2048_S2x16x2048x2048) hw

end Cert.KernelIdeal.HostGlue

end
-- ==== Proof.KernelRun.lean ====
/-
  The kernel's run with both results named.

  After the region the flat weights and output arrays hold the flat attention of the flat query, key and value arrays the region
  found. Those three are the arguments with batch and head merged (the wrapper's reshape; the change of float format is the
  identity on extended reals), and the wrapper's last two reshapes split the merged axis of both results again. Merging and splitting
  cancel: result entry (b, h, s, ·) is flat entry (16·b + h, s, ·), which is the flat attention of row-block 16·b + h, which is the
  specification's attention at (b, h). So every weakly fair execution ends with the output result at `outArr q k v`, the weights
  result at `attnArr q k`, and the arguments unchanged.
-/
import proofs.«113784_j57432302682805_2_alg».proof.Proof.Blocks
import proofs.«113784_j57432302682805_2_alg».proof.Proof.HostGlue

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Blocks

variable (m : (ℓ : Loc nD τ sig) → Buf (Elt Ideal) ℓ) (ρ : Dev nD → PrngReg)

/-- The output result after the wrapper's last reshape is the specification's output of the arguments. -/
theorem out_result (c : Dev nD) :
    Pipeline.afterTail₀ cfgs (dats m) 0 (V0 m) [hostOps1] c main_v7
      = Cert.Attention.outArr (m ((c : Thread nD τ).loc main_arg0)) (m ((c : Thread nD τ).loc main_arg1)) (m ((c : Thread nD τ).loc main_arg2)) := by
  refine (Cert.KernelIdeal.HostGlue.tail_out m c).trans ?_
  rw [final_out]
  funext i
  obtain ⟨b, h, s, d, rfl⟩ : ∃ (b : Fin 2) (h : Fin 16) (s : Fin 2048) (d : Fin 64), i = ix4 b h s d := ⟨i 0, i 1, i 2, i 3, eq_ix4 i⟩
  refine (Cert.KernelIdeal.HostGlue.unflatten_out _ b h s d).trans ?_
  exact Cert.FlatAttention.out_eq (Cert.KernelIdeal.HostGlue.flattens_q m c) (Cert.KernelIdeal.HostGlue.flattens_k m c)
    (Cert.KernelIdeal.HostGlue.flattens_v m c) b h s d

/-- The weights result after the wrapper's last reshape is the specification's weights of the arguments. -/
theorem attn_result (c : Dev nD) :
    Pipeline.afterTail₀ cfgs (dats m) 0 (V0 m) [hostOps1] c main_v8
      = Cert.Attention.attnArr (m ((c : Thread nD τ).loc main_arg0)) (m ((c : Thread nD τ).loc main_arg1)) := by
  refine (Cert.KernelIdeal.HostGlue.tail_attn m c).trans ?_
  rw [final_attn]
  funext i
  obtain ⟨b, h, s, t, rfl⟩ : ∃ (b : Fin 2) (h : Fin 16) (s t : Fin 2048), i = ix4 b h s t := ⟨i 0, i 1, i 2, i 3, eq_ix4 i⟩
  refine (Cert.KernelIdeal.HostGlue.unflatten_attn _ b h s t).trans ?_
  exact Cert.FlatAttention.attn_eq (Cert.KernelIdeal.HostGlue.flattens_q m c) (Cert.KernelIdeal.HostGlue.flattens_k m c) b h s t

/-- THE RUN: every weakly fair execution terminates with the two results at the specification's arrays of the arguments, the
    arguments unchanged. Each buffer is read off the frame run's post, a result through the lines after the region. -/
theorem run : θ_run defs (onTc (τ := τ) (main (F := Ideal))) ⟨m, fun _ => 0, ρ⟩ fun r => ∀ c : Dev nD,
      r.2.mem ((c.tc : Thread nD τ).loc main_v7)
        = Cert.Attention.outArr (m ((c.tc : Thread nD τ).loc main_arg0)) (m ((c.tc : Thread nD τ).loc main_arg1)) (m ((c.tc : Thread nD τ).loc main_arg2))
      ∧ r.2.mem ((c.tc : Thread nD τ).loc main_v8)
        = Cert.Attention.attnArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (out_result m c),
     ((h c).2 main_v8 (Pipeline.mem_restRefs_of main_v8 (by decide) (by decide))).trans (attn_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Run

end
-- ==== Proof.lean ====
/- Scaled dot-product attention: the kernel and its reference compute one function over the extended reals.

   Both programs are read against one index-by-index specification (Proof/Attention.lean): scores with the temperature 8,
   the softmax of every row of scores, the weights applied to the values. The reference is that specification operation by
   operation (Proof/RefAttention.lean, over its generated run). The kernel merges batch and head, tiles the query positions over a
   grid, computes on every tile the same scores with the temperature applied AFTER the inner product as the factor 1/8, the same
   softmax and the same weighted sum, and writes the tiles back where they belong (Proof/TileSoftmax.lean, Proof/Blocks.lean,
   Proof/HostGlue.lean, Proof/KernelRun.lean). The one algebraic law between the two is that a nonnegative real factor distributes
   over any sum of extended reals, so the precondition (finite inputs) is never opened. The three frames are the generated ones
   (the reference's is its generated run with the results dropped), and the idealization rewrote nothing, so `preserves` is trivial. -/
import proofs.«113784_j57432302682805_2_alg».proof.Defs
import proofs.«113784_j57432302682805_2_alg».proof.Proof.Gen.Kernel
import proofs.«113784_j57432302682805_2_alg».proof.Proof.Gen.Kernel.Skeleton
import proofs.«113784_j57432302682805_2_alg».proof.Proof.Gen.Kernel.Launch
import proofs.«113784_j57432302682805_2_alg».proof.Proof.Gen.Kernel.Points
import proofs.«113784_j57432302682805_2_alg».proof.Proof.Gen.Kernel.Frame
import proofs.«113784_j57432302682805_2_alg».proof.Proof.Gen.KernelIdeal
import proofs.«113784_j57432302682805_2_alg».proof.Proof.Gen.KernelIdeal.Skeleton
import proofs.«113784_j57432302682805_2_alg».proof.Proof.Gen.KernelIdeal.Launch
import proofs.«113784_j57432302682805_2_alg».proof.Proof.Gen.KernelIdeal.Points
import proofs.«113784_j57432302682805_2_alg».proof.Proof.Gen.KernelIdeal.Frame
import proofs.«113784_j57432302682805_2_alg».proof.Proof.Gen.ReferenceIdeal
import proofs.«113784_j57432302682805_2_alg».proof.Proof.Gen.Pre_finite_inputs
import proofs.«113784_j57432302682805_2_alg».proof.Proof.Gen.ReferenceIdeal.Run
import proofs.«113784_j57432302682805_2_alg».proof.Proof.Gen.ReferenceIdeal.Read
import proofs.«113784_j57432302682805_2_alg».proof.Proof.RefAttention
import proofs.«113784_j57432302682805_2_alg».proof.Proof.KernelRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to restate. -/
theorem preserves : Cert.preserves_Kernel_KernelIdeal := trivial

/-- From memories agreeing on the arguments both programs end with the output at `outArr q k v` and the weights at `attnArr q k`:
    the kernel by its named run, the reference by its generated run, whose two result terms are the specification's arrays. -/
theorem algebraic : Cert.algebraic_KernelIdeal_ReferenceIdeal := by
  intro m ρ m' ρ' _ hagree
  refine ⟨fun c => Cert.Attention.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attention.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ?_) (Cert.ReferenceIdeal.Value.run (F := Ideal) m' ρ')
  obtain ⟨hout, hattn, ha0, ha1, ha2⟩ := h c
  refine ⟨hout.trans ?_, hattn.trans ?_, ha0, ha1, ha2⟩
  · rw [(hagree c).1, (hagree c).2.1, (hagree c).2.2]
    exact Cert.RefAttention.out_eq _ _ _
  · rw [(hagree c).1, (hagree c).2.1]
    exact Cert.RefAttention.attn_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
